-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S48x256 : Shape := ⟨2, ![48, 256]⟩
abbrev S1 : Shape := ⟨1, ![1]⟩
abbrev S256x1 : Shape := ⟨2, ![256, 1]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x256 : S_.BroadcastsInDim S48x256 (![] : Fin 0 → Fin S48x256.rank)
  reducesTo_S48x256_S_d0_1 : S48x256.ReducesTo [0, 1] S_
  bcast_S_S1 : S_.BroadcastsInDim S1 (![] : Fin 0 → Fin S1.rank)
  reducesTo_S1_S_d0 : S1.ReducesTo [0] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg5 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x48 .f32) (main_arg1 : IVec S2x1600000 32) (main_arg2 : FVec F S48x256 .f32) (main_arg3 : FVec F S1 .f32) (main_arg4 : FVec F S256x1 .f32) (main_arg5 : FVec F S1 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x256 .f32 := Host.absf main_arg2
  let main_cst_0 : FVec F S_ .f32 := constant S_ .f32 0x7F800000#32
  let main_v5 : FVec F S48x256 .f32 := broadcastInDim S48x256 ![] bcast_S_S48x256 main_cst_0
  let main_v6 : IVec S48x256 1 := cmpf .olt main_v4 main_v5
  let main_c_1 : IVec S_ 1 := constantI S_ 1 1#1
  let main_v7 : IVec S_ 1 := (fun x v => Host.reduce IntOp.andi x v reducesTo_S48x256_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_v13 main_v16
-- ==== Kernel.lean ====
abbrev S100000x48 : Shape := ⟨2, ![100000, 48]⟩
abbrev S2x1600000 : Shape := ⟨2, ![2, 1600000]⟩
abbrev S48x256 : Shape := ⟨2, ![48, 256]⟩
abbrev S1 : Shape := ⟨1, ![1]⟩
abbrev S256x1 : Shape := ⟨2, ![256, 1]⟩
abbrev S48x1 : Shape := ⟨2, ![48, 1]⟩
abbrev S100000x1 : Shape := ⟨2, ![100000, 1]⟩
abbrev S5000x48 : Shape := ⟨2, ![5000, 48]⟩
abbrev S5000x1 : Shape := ⟨2, ![5000, 1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩

abbrev nBuf : Space → Nat
  | .hbm => 67
  | .vmem => 5
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x256, .f32⟩
  | .hbm, ⟨3, _⟩ => ⟨S1, .f32⟩
  | .hbm, ⟨4, _⟩ => ⟨S256x1, .f32⟩
  | .hbm, ⟨5, _⟩ => ⟨S1, .f32⟩
  | .hbm, ⟨6, _⟩ => ⟨S48x1, .f32⟩
  | .hbm, ⟨7, _⟩ => ⟨S100000x1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x1, .f32⟩
  | .hbm, ⟨53, _⟩ => ⟨S1700000x1, .f32⟩
  | .hbm, ⟨54, _⟩ => ⟨S1700000x1, .f32⟩
  | .hbm, ⟨55, _⟩ => ⟨S_, .f32⟩
  | .hbm, ⟨56, _⟩ => ⟨S100000x1, .f32⟩
  | .hbm, ⟨57, _⟩ => ⟨S1700000x1, .i32⟩
  | .hbm, ⟨58, _⟩ => ⟨S100000x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S100000x1, .f32⟩
  | .hbm, ⟨66, _⟩ => ⟨S100000x1, .f32⟩
  | .local _ .vmem, ⟨0, _⟩ => ⟨S5000x48, .f32⟩
  | .local _ .vmem, ⟨1, _⟩ => ⟨S5000x48, .f32⟩
  | .local _ .vmem, ⟨2, _⟩ => ⟨S48x1, .f32⟩
  | .local _ .vmem, ⟨3, _⟩ => ⟨S5000x1, .f32⟩
  | .local _ .vmem, ⟨4, _⟩ => ⟨S5000x1, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x48_S5000x48_0_0 : ∀ a, (![0, 0] : Fin 2 → Nat) a + S5000x48.size a ≤ S5000x48.size a
  h_S5000x48 : 0 < S5000x48.numel
  bitsLt_bf16_f32 : FTy.bits .bf16 < FTy.bits .f32
  inb_S48x1_S48x1_0_0 : ∀ a, (![0, 0] : Fin 2 → Nat) a + S48x1.size a ≤ S48x1.size a
  h_S48x1 : 0 < S48x1.numel
  shapeCasts_S48x1_S48x1 : S48x1.ShapeCasts S48x1
  inb_S5000x1_S5000x1_0_0 : ∀ a, (![0, 0] : Fin 2 → Nat) a + S5000x1.size a ≤ S5000x1.size a
  h_S5000x1 : 0 < S5000x1.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x1 : S_.BroadcastsInDim S100000x1 (![] : Fin 0 → Fin S100000x1.rank)
  shapeCasts_S1_S_ : S1.ShapeCasts S_
  reducesTo_S256x1_S_d0_1 : S256x1.ReducesTo [0, 1] S_
  h_S_ : 0 < S_.numel
  dot_S48x256_S256x1_S48x1_1_0_0_1_n_n_wf : DotDims.WF S48x256 S256x1 S48x1 [1] [0] [0] [1] [] []
  dot_S5000x48_S48x1_S5000x1_1_0_0_1_n_n_wf : DotDims.WF S5000x48 S48x1 S5000x1 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x1.size a ≤ S48x1.size a
  hwx0_1 : ∀ i : grid0.Coords, EltTy.bits .f32 = 32 ∨ (Rect.block (s := S48x1) S48x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)

variable [Facts₀]

def dot_S48x256_S256x1_S48x1_1_0_0_1_n_n : DotDims S48x256 S256x1 S48x1 where
  lhsContracting := [1]
  rhsContracting := [0]
  lhsNonContracting := [0]
  rhsNonContracting := [1]
  lhsBatch := []
  rhsBatch := []
  wf := dot_S48x256_S256x1_S48x1_1_0_0_1_n_n_wf
def dot_S5000x48_S48x1_S5000x1_1_0_0_1_n_n : DotDims S5000x48 S48x1 S5000x1 where
  lhsContracting := [1]
  rhsContracting := [0]
  lhsNonContracting := [0]
  rhsNonContracting := [1]
  lhsBatch := []
  rhsBatch := []
  wf := dot_S5000x48_S48x1_S5000x1_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S48x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S48x256 : Shape := ⟨2, ![48, 256]⟩
abbrev S1 : Shape := ⟨1, ![1]⟩
abbrev S256x1 : Shape := ⟨2, ![256, 1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x48 : Shape := ⟨2, ![1700000, 48]⟩
abbrev S100000x256 : Shape := ⟨2, ![100000, 256]⟩
abbrev S1x1 : Shape := ⟨2, ![1, 1]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x256, .f32⟩
  | .hbm, ⟨3, _⟩ => ⟨S1, .f32⟩
  | .hbm, ⟨4, _⟩ => ⟨S256x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x48, .f32⟩
  | .hbm, ⟨51, _⟩ => ⟨S1700000x1, .f32⟩
  | .hbm, ⟨52, _⟩ => ⟨S1700000x48, .f32⟩
  | .hbm, ⟨53, _⟩ => ⟨S1700000x48, .f32⟩
  | .hbm, ⟨54, _⟩ => ⟨S_, .f32⟩
  | .hbm, ⟨55, _⟩ => ⟨S100000x48, .f32⟩
  | .hbm, ⟨56, _⟩ => ⟨S1700000x1, .i32⟩
  | .hbm, ⟨57, _⟩ => ⟨S100000x48, .f32⟩
  | .hbm, ⟨58, _⟩ => ⟨S100000x256, .f32⟩
  | .hbm, ⟨59, _⟩ => ⟨S1x1, .f32⟩
  | .hbm, ⟨60, _⟩ => ⟨S100000x256, .f32⟩
  | .hbm, ⟨61, _⟩ => ⟨S100000x256, .f32⟩
  | .hbm, ⟨62, _⟩ => ⟨S100000x1, .f32⟩
  | .hbm, ⟨63, _⟩ => ⟨S1x1, .f32⟩
  | .hbm, ⟨64, _⟩ => ⟨S100000x1, .f32⟩
  | .hbm, ⟨65, _⟩ => ⟨S100000x1, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S1_S1x1_1 : S1.BroadcastsInDim S1x1 (![1] : Fin 1 → Fin S1x1.rank)
  bcast_S1x1_S100000x256_0_1 : S1x1.BroadcastsInDim S100000x256 (![0, 1] : Fin 2 → Fin S100000x256.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S100000x48_S48x256_S100000x256_1_0_0_1_n_n_wf : DotDims.WF S100000x48 S48x256 S100000x256 [1] [0] [0] [1] [] []
  dot_S100000x256_S256x1_S100000x1_1_0_0_1_n_n_wf : DotDims.WF S100000x256 S256x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S100000x48_S48x256_S100000x256_1_0_0_1_n_n : DotDims S100000x48 S48x256 S100000x256 where
  lhsContracting := [1]
  rhsContracting := [0]
  lhsNonContracting := [0]
  rhsNonContracting := [1]
  lhsBatch := []
  rhsBatch := []
  wf := dot_S100000x48_S48x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KernelRegion.lean ====
/-
  What the kernel's one region leaves in its output array.

  The region runs over 20 grid points; point `t` reads rows 5000·t … 5000·t + 4999 of `x` (all 48 columns) and the
  whole [48, 1] vector `w`, and writes the product of that block of rows with `w` into rows 5000·t … of the
  [100000, 1] output. The casts to bfloat16 on the way into the product are the identity on the extended reals. So the
  output array ends holding, at row `i`,  ∑ f, x (i, f) · w (f, 0): the blocks written by the 20 points are the
  20 blocks of that one function, and together they cover every row. The vector `w` is itself a product computed
  before the region: w (f, 0) = ∑ j, W1 (f, j) · W2 (j, 0).
-/
import proofs.«158524_j90443421319565_2_alg».proof.Proof.Gen.KernelIdeal.Frame
import proofs.«158524_j90443421319565_2_alg».proof.Proof.LibPlainDot
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo Cert.Lib

/-- Every row of `x` projected onto the vector `w`. -/
def proj (x : FVec Ideal S100000x48 .f32) (w : FVec Ideal S48x1 .f32) : FVec Ideal S100000x1 .f32 :=
  fun i => ∑ f : Fin 48, x (ix2 (⟨(i 0).val, (i 0).isLt⟩ : Fin 100000) f) * w (ix2 f (0 : Fin 1))

theorem proj_apply (x : FVec Ideal S100000x48 .f32) (w : FVec Ideal S48x1 .f32) (n : Fin 100000) :
    proj x w (ix2 n (0 : Fin 1)) = ∑ f : Fin 48, x (ix2 n f) * w (ix2 f (0 : Fin 1)) := rfl

/-- THE BODY'S STORED VALUE at row `p` of the block: the block's row `p` of `x` against `w`. -/
theorem pay_apply (v0 : Vec Ideal S5000x48 .f32) (v2 : Vec Ideal S48x1 .f32) (p : Fin 5000) :
    k0_pay1 (F := Ideal) v0 v2 (ix2 p (0 : Fin 1)) = ∑ f : Fin 48, v0 (ix2 p f) * v2 (ix2 f (0 : Fin 1)) := by
  unfold k0_pay1
  refine (matmul_zero_apply (M := 5000) (K := 48) (N := 1) dot_S5000x48_S48x1_S5000x1_1_0_0_1_n_n.wf none
    (truncf .bf16 v0 bitsLt_bf16_f32) (truncf .bf16 (shapeCast S48x1 v2 shapeCasts_S48x1_S48x1) bitsLt_bf16_f32)
    p (0 : Fin 1)).trans ?_
  refine Finset.sum_congr rfl fun f _ => ?_
  rw [shapeCast_self]
  rfl

variable (m : (ℓ : Loc nD τ sig) → Buf (Elt Ideal) ℓ)

theorem hz : (![0, 0] : Fin 2 → Nat) = fun _ => 0 := funext fun a => by fin_cases a <;> rfl

/-- The printed index maps over the grid: point `t` reads block row `t` of `x`, the one block of `w`, and writes
    block row `t` of the output. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p`, column `f` of the block of `x` at point `t` is `x` at row 5000·t + p. -/
theorem blk_x (c : Dev nD) (t : Fin cfg0.N) (p : Fin 5000) (f : Fin 48) (hr : t.val * 5000 + p.val < 100000) :
    iblk m c 0 t (ix2 p f) = V m c main_arg0 (ix2 (⟨t.val * 5000 + p.val, hr⟩ : Fin 100000) f) := by
  obtain ⟨e0, e1, -, -, -, -⟩ := idx_facts t
  show V m c main_arg0 (((cfg0.win 0).blk t).view.emb (ix2 p f)) = V m c main_arg0 _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 48 + 1 * f.val = f.val; omega

/-- The one block of `w` is `w`. -/
theorem blk_w (c : Dev nD) (t : Fin cfg0.N) (f : Fin 48) :
    iblk m c 1 t (ix2 f (0 : Fin 1)) = V m c main_v0 (ix2 f (0 : Fin 1)) := by
  obtain ⟨-, -, e2, e3, -, -⟩ := idx_facts t
  show V m c main_v0 (((cfg0.win 1).blk t).view.emb (ix2 f (0 : Fin 1))) = V m c main_v0 _
  refine congrArg _ (funext fun a => Fin.ext ?_)
  match a with
  | ⟨0, _⟩ => show win0_1.index t (0 : Fin 2) * 48 + 1 * f.val = f.val; omega
  | ⟨1, _⟩ => show win0_1.index t (1 : Fin 2) * 1 + 1 * (0 : Fin 1).val = (0 : Fin 1).val; omega

/-- WHAT POINT `t` WRITES BACK is block `t` of the projection of `x` onto `w`, both as the region finds them. -/
theorem flushed_eq (c : Dev nD) (t : Fin cfg0.N) :
    (dats m 0 c).flushed 2 t
      = ((cfg0.win 2).blk t).view.read (Elt Ideal) (proj (V m c main_arg0) (V m c main_v0)) := by
  show (cfg0.win 2).cut (grid0.coords t) ((dats m 0 c).after 2 t) = _
  rw [after0_2]
  unfold out0_2
  rw [View.canon_unit_zero hz]
  simp only [View.ld_unit_zero (S := S5000x48) hz, View.ld_unit_zero (S := S48x1) hz]
  funext j
  obtain ⟨p, q, rfl⟩ : ∃ (p : Fin 5000) (q : Fin 1), j = ix2 p q := ⟨j 0, j 1, eq_ix2 j⟩
  obtain rfl : q = 0 := Subsingleton.elim _ _
  have ht : t.val < 20 := lt_of_lt_of_eq t.isLt (N_0 : cfg0.N = 20)
  have hr : t.val * 5000 + p.val < 100000 := by have := p.isLt; omega
  obtain ⟨-, -, -, -, e4, e5⟩ := idx_facts t
  have hemb : ((cfg0.win 2).blk t).view.emb (ix2 p (0 : Fin 1))
      = ix2 (⟨t.val * 5000 + p.val, hr⟩ : Fin 100000) (0 : Fin 1) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * (0 : Fin 1).val = (0 : Fin 1).val; omega
  show k0_pay1 (F := Ideal) (iblk m c 0 t) (iblk m c 1 t) (ix2 p (0 : Fin 1))
    = proj (V m c main_arg0) (V m c main_v0) (((cfg0.win 2).blk t).view.emb (ix2 p (0 : Fin 1)))
  rw [hemb, proj_apply]
  refine (pay_apply (iblk m c 0 t) (iblk m c 1 t) p).trans ?_
  refine Finset.sum_congr rfl fun f _ => ?_
  rw [blk_x m c t p f hr, blk_w m c t f]

/-- An index of the output array is in point `t`'s block iff each coordinate is in the block's range on its axis. -/
theorem mem_blk (t : Fin cfg0.N) (i : S100000x1.Idx) :
    i ∈ ((cfg0.win 2).blk t).view.set ↔ ∀ a : Fin 2, win0_2.index t a * S5000x1.size a ≤ (i a).val
      ∧ (i a).val < win0_2.index t a * S5000x1.size a + S5000x1.size a := by
  show i ∈ ((View.whole main_v1).slice (win0_2.rect t)).set ↔ _
  rw [View.set_slice_whole, Rect.mem_set_unit]
  exact Iff.rfl

/-- Every row of the output is in the block of the point numbered row ÷ 5000. -/
theorem cover (i : S100000x1.Idx) :
    ∃ t : Fin cfg0.N, (cfg0.win 2).flush t = true ∧ i ∈ ((cfg0.win 2).blk t).view.set := by
  have hi0 : (i 0).val < 100000 := (i 0).isLt
  have hi1 : (i 1).val < 1 := (i 1).isLt
  have hN : cfg0.N = 20 := N_0
  let t : Fin cfg0.N := ⟨(i 0).val / 5000, by rw [hN]; omega⟩
  obtain ⟨-, -, -, -, e4, e5⟩ := idx_facts t
  have e4' : win0_2.index t (0 : Fin 2) = (i 0).val / 5000 := e4
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 1 ≤ (i 1).val ∧ (i 1).val < win0_2.index t (1 : Fin 2) * 1 + 1
    omega

/-- The two weight matrices as launched, typed as arrays. -/
abbrev argW1 (c : Dev nD) : FVec Ideal S48x256 .f32 := m ((c : Thread nD τ).loc main_arg2)
abbrev argW2 (c : Dev nD) : FVec Ideal S256x1 .f32 := m ((c : Thread nD τ).loc main_arg4)
abbrev argX (c : Dev nD) : FVec Ideal S100000x48 .f32 := m ((c : Thread nD τ).loc main_arg0)

/-- The vector `w` as the region finds it: the product W1 · W2 computed before the region. -/
theorem w_eq (c : Dev nD) :
    (V m c main_v0 : S48x1.Idx → EReal)
      = Host.dotGeneral (F := Ideal) dot_S48x256_S256x1_S48x1_1_0_0_1_n_n none (argW1 m c) (argW2 m c) := by
  show StableHlo.after hostOps0 (fun b => m (c, b)) (Proc.devRef .tc main_v0) = _
  after_results <;> rfl

/-- THE OUTPUT ARRAY AFTER THE REGION: `x` projected, row by row, onto W1 · W2. -/
theorem final (c : Dev nD) :
    (dats m 0 c).arrAt 2 cfg0.N
      = proj (argX m c) (Host.dotGeneral (F := Ideal) dot_S48x256_S256x1_S48x1_1_0_0_1_n_n none (argW1 m c) (argW2 m c)) := by
  rw [← w_eq m c, show argX m c = V m c main_arg0 from (V_main_arg0 m c).symm]
  exact (dats m 0 c).arrAt_eq_of_cover 2 _ (fun t _ => flushed_eq m c t) cover

/-- W1 · W2 at `(f, 0)`. -/
theorem w_apply (W1 : FVec Ideal S48x256 .f32) (W2 : FVec Ideal S256x1 .f32) (f : Fin 48) :
    Host.dotGeneral (F := Ideal) dot_S48x256_S256x1_S48x1_1_0_0_1_n_n none W1 W2 (ix2 f (0 : Fin 1))
      = ∑ j : Fin 256, W1 (ix2 f j) * W2 (ix2 j (0 : Fin 1)) :=
  dotGeneral_plain_apply (M := 48) (K := 256) (N := 1) dot_S48x256_S256x1_S48x1_1_0_0_1_n_n.wf none .single W1 W2 f
    (0 : Fin 1)

end Cert.KernelIdeal.Region

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.RefAt.lean ====
/-
  The reference's result at a node.

  Write, for the edge list with its self-loops appended (1,700,000 entries), `edgesAt n` for the set of entries whose
  destination integer is `n`, `srcRow e` for the row of `x` that entry `e` reads (its source integer, wrapped
  when negative and clamped into range), and `edgeNorm e` for the entry's symmetric-normalization weight. The
  reference aggregates the weighted rows of `x` per destination, applies the first dense layer with its scalar bias,
  then the second with its scalar bias; at node `n` that is

      ∑ j, ((∑ f, (0 + ∑ e ∈ edgesAt n, x (srcRow e, f) · edgeNorm e) · W1 (f, j)) + bias 0) · W2 (j, 0) + b2 0 .
-/
import proofs.«158524_j90443421319565_2_alg».proof.Proof.Gen.ReferenceIdeal.Read
import proofs.«158524_j90443421319565_2_alg».proof.Proof.LibEdgeGatherScatter

noncomputable section

namespace Cert.RefAt

open Cert.ReferenceIdeal Cert.ReferenceIdeal.Read Idealize.ShloMosaic Idealize.ShloMosaic.ValueIdx Cert.Lib

/-- The destination integers, one per entry of the extended edge list, as the scatters read them. -/
abbrev dstIdx (x1 : IVec S2x1600000 32) : IVec S1700000x1 32 := val_main_v40 (F := Ideal) x1
/-- The source integers (wrapped when negative), one per entry, as the gather of rows reads them. -/
abbrev srcIdx (x1 : IVec S2x1600000 32) : IVec S1700000x1 32 := val_main_v34 (F := Ideal) x1

/-- The entries of the extended edge list whose destination is node `n`. -/
def edgesAt (x1 : IVec S2x1600000 32) (n : Fin 100000) : Finset (Fin 1700000) :=
  Finset.univ.filter (fun e : Fin 1700000 => (dstIdx x1 (ix2 e (0 : Fin 1))).toInt = (n.val : Int))
/-- The row of `x` that entry `e` reads. -/
def srcRow (x1 : IVec S2x1600000 32) (e : Fin 1700000) : Fin 100000 :=
  clampRow 100000 (by decide) (srcIdx x1) e
/-- Entry `e`'s normalization weight, the product of the inverse square roots of its two endpoints' degrees. -/
def edgeNorm (x1 : IVec S2x1600000 32) (e : Fin 1700000) : EReal := val_main_v28 (F := Ideal) x1 (ix1 e)

theorem l46 (n : Fin 100000) (k : Fin 256) : lidx_main_v46 (ix2 n (0 : Fin 1)) k = ix2 n k :=
  funext fun a => Fin.ext (by match a with | ⟨0, _⟩ => rfl | ⟨1, _⟩ => rfl)
theorem r46 (n : Fin 100000) (k : Fin 256) : ridx_main_v46 (ix2 n (0 : Fin 1)) k = ix2 k (0 : Fin 1) :=
  funext fun a => Fin.ext (by match a with | ⟨0, _⟩ => rfl | ⟨1, _⟩ => rfl)
theorem l42 (n : Fin 100000) (k : Fin 256) (f : Fin 48) : lidx_main_v42 (ix2 n k) f = ix2 n f :=
  funext fun a => Fin.ext (by match a with | ⟨0, _⟩ => rfl | ⟨1, _⟩ => rfl)
theorem r42 (n : Fin 100000) (k : Fin 256) (f : Fin 48) : ridx_main_v42 (ix2 n k) f = ix2 f k :=
  funext fun a => Fin.ext (by match a with | ⟨0, _⟩ => rfl | ⟨1, _⟩ => rfl)
theorem i43 (i : S1x1.Idx) : idx_main_v43 i = ix1 (0 : Fin 1) :=
  funext fun a => Fin.ext (by match a with | ⟨0, _⟩ => rfl)
theorem i47 (i : S1x1.Idx) : idx_main_v47 i = ix1 (0 : Fin 1) :=
  funext fun a => Fin.ext (by match a with | ⟨0, _⟩ => rfl)
theorem i3736 (e : Fin 1700000) (f : Fin 48) : idx_main_v36 (idx_main_v37 (ix2 e f)) = ix1 e :=
  funext fun a => Fin.ext (by match a with | ⟨0, _⟩ => rfl)

/-- Weighted rows accumulated per destination, for any destination integers `iD`, source integers `iS`, weights `nu`
    (one per entry, the same on every column) and any all-zero start `z`. -/
theorem agg_gen (z : FVec Ideal S100000x48 .f32) (hz : ∀ i, z i = (0 : EReal)) (iD iS : IVec S1700000x1 32)
    (x0 : FVec Ideal S100000x48 .f32) (w : FVec Ideal S1700000x48 .f32) (nu : Fin 1700000 → EReal)
    (hw : ∀ (e : Fin 1700000) (f : Fin 48), w (ix2 e f) = nu e) (n : Fin 100000) (f : Fin 48) :
    Host.scatterAdd (F := Ideal) scatter_S100000x48_S1700000x1_S1700000x48_1_0_0_1 z iD
        (mulf (Host.gather gather_S100000x48_S1700000x1_S1700000x48_1_0_n_n_0_1_148 x0 iS) w) (ix2 n f)
      = (0 : EReal) + ∑ e ∈ Finset.univ.filter (fun e : Fin 1700000 => (iD (ix2 e (0 : Fin 1))).toInt = (n.val : Int)),
          x0 (ix2 (clampRow 100000 (by decide) iS e) f) * nu e := by
  refine (scatterAdd_rows_apply (N := 100000) (D := 48) (E := 1700000)
    scatter_S100000x48_S1700000x1_S1700000x48_1_0_0_1.wf iD z
    (mulf (Host.gather gather_S100000x48_S1700000x1_S1700000x48_1_0_n_n_0_1_148 x0 iS) w) n f).trans ?_
  refine congrArg₂ (· + ·) (hz _) (Finset.sum_congr rfl fun e _ => ?_)
  refine congrArg₂ (· * ·) ?_ (hw e f)
  exact gather_rows_apply (N := 100000) (D := 48) (E := 1700000) (by decide)
    gather_S100000x48_S1700000x1_S1700000x48_1_0_n_n_0_1_148.wf x0 iS e f

theorem v39_zero (i : S100000x48.Idx) : val_main_v39 (F := Ideal) i = (0 : EReal) := by
  rw [val_main_v39_apply, val_main_cst_7_apply]
  exact Ideal.ofBits_zero_f32

theorem v37_at (x1 : IVec S2x1600000 32) (e : Fin 1700000) (f : Fin 48) :
    val_main_v37 (F := Ideal) x1 (ix2 e f) = edgeNorm x1 e := by
  rw [val_main_v37_apply, val_main_v36_apply, i3736]
  rfl

/-- The aggregated rows at `(n, f)`: zero plus the weighted rows of the entries arriving at `n`. -/
theorem agg_apply (x0 : FVec Ideal S100000x48 .f32) (x1 : IVec S2x1600000 32) (n : Fin 100000) (f : Fin 48) :
    val_main_v41 (F := Ideal) x0 x1 (ix2 n f)
      = (0 : EReal) + ∑ e ∈ edgesAt x1 n, x0 (ix2 (srcRow x1 e) f) * edgeNorm x1 e :=
  agg_gen (val_main_v39 (F := Ideal)) v39_zero (val_main_v40 (F := Ideal) x1) (val_main_v34 (F := Ideal) x1) x0
    (val_main_v37 (F := Ideal) x1) (edgeNorm x1) (v37_at x1) n f

theorem v48_at (x5 : FVec Ideal S1 .f32) (i : S100000x1.Idx) : val_main_v48 (F := Ideal) x5 i = x5 (ix1 (0 : Fin 1)) := by
  rw [val_main_v48_apply, val_main_v47_apply, i47]

theorem v44_at (x3 : FVec Ideal S1 .f32) (i : S100000x256.Idx) : val_main_v44 (F := Ideal) x3 i = x3 (ix1 (0 : Fin 1)) := by
  rw [val_main_v44_apply, val_main_v43_apply, i43]

theorem v42_at (x0 : FVec Ideal S100000x48 .f32) (x1 : IVec S2x1600000 32) (x2 : FVec Ideal S48x256 .f32)
    (n : Fin 100000) (j : Fin 256) :
    val_main_v42 (F := Ideal) x0 x1 x2 (ix2 n j)
      = ∑ f : Fin 48, val_main_v41 (F := Ideal) x0 x1 (ix2 n f) * x2 (ix2 f j) := by
  rw [val_main_v42_apply]
  refine Finset.sum_congr rfl fun f _ => ?_
  rw [l42, r42]

theorem v45_at (x0 : FVec Ideal S100000x48 .f32) (x1 : IVec S2x1600000 32) (x2 : FVec Ideal S48x256 .f32)
    (x3 : FVec Ideal S1 .f32) (n : Fin 100000) (j : Fin 256) :
    val_main_v45 (F := Ideal) x0 x1 x2 x3 (ix2 n j)
      = (∑ f : Fin 48, val_main_v41 (F := Ideal) x0 x1 (ix2 n f) * x2 (ix2 f j)) + x3 (ix1 (0 : Fin 1)) := by
  rw [val_main_v45_apply, v42_at, v44_at]
  rfl

theorem v46_at (x0 : FVec Ideal S100000x48 .f32) (x1 : IVec S2x1600000 32) (x2 : FVec Ideal S48x256 .f32)
    (x3 : FVec Ideal S1 .f32) (x4 : FVec Ideal S256x1 .f32) (n : Fin 100000) :
    val_main_v46 (F := Ideal) x0 x1 x2 x3 x4 (ix2 n (0 : Fin 1))
      = ∑ j : Fin 256, val_main_v45 (F := Ideal) x0 x1 x2 x3 (ix2 n j) * x4 (ix2 j (0 : Fin 1)) := by
  rw [val_main_v46_apply]
  refine Finset.sum_congr rfl fun j _ => ?_
  rw [l46, r46]

/-- THE REFERENCE AT NODE `n`. -/
theorem ref_apply (x0 : FVec Ideal S100000x48 .f32) (x1 : IVec S2x1600000 32) (x2 : FVec Ideal S48x256 .f32)
    (x3 : FVec Ideal S1 .f32) (x4 : FVec Ideal S256x1 .f32) (x5 : FVec Ideal S1 .f32) (n : Fin 100000) :
    val_main_v49 (F := Ideal) x0 x1 x2 x3 x4 x5 (ix2 n (0 : Fin 1))
      = (∑ j : Fin 256, ((∑ f : Fin 48, ((0 : EReal) + ∑ e ∈ edgesAt x1 n, x0 (ix2 (srcRow x1 e) f) * edgeNorm x1 e)
            * x2 (ix2 f j)) + x3 (ix1 (0 : Fin 1))) * x4 (ix2 j (0 : Fin 1))) + x5 (ix1 (0 : Fin 1)) := by
  rw [val_main_v49_apply, v46_at, v48_at]
  refine congrArg₂ (· + ·) (Finset.sum_congr rfl fun j _ => ?_) rfl
  rw [v45_at]
  refine congrArg₂ (· * ·) (congrArg₂ (· + ·) (Finset.sum_congr rfl fun f _ => ?_) rfl) rfl
  rw [agg_apply]

end Cert.RefAt

end
-- ==== Proof.KernelTail.lean ====
/-
  The kernel program's host lines after the region, as one function, read at a node.

  After the region has left `z` (the rows of `x` projected onto W1 · W2) in its output array, the program builds the
  extended edge list, the degrees, the edge weights, gathers `z` at the entries' sources, scales by the weights,
  accumulates per destination, and adds the constant  bias 0 · (sum of W2) + b2 0 . The edge list, the set of entries
  arriving at a node, the row an entry reads and its weight are computed by the very operations the reference
  uses, so they are named here by the reference's own stages. At node `n` the result is

      (0 + ∑ e ∈ edgesAt n, z (srcRow e, 0) · edgeNorm e) + (bias 0 · (0 + ∑ j, W2 (j, 0)) + b2 0) .
-/
import proofs.«158524_j90443421319565_2_alg».proof.Proof.Gen.KernelIdeal.Frame
import proofs.«158524_j90443421319565_2_alg».proof.Proof.RefAt
import proofs.«158524_j90443421319565_2_alg».proof.Proof.LibEdgeGatherScatter
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Tail

open Cert.KernelIdeal Cert.KernelIdeal.Gen Idealize.ShloMosaic Idealize.ShloMosaic.TcCoe Idealize.ShloMosaic.ValueIdx
open Idealize.SL.Sem Idealize.ShloMosaic.StableHlo Cert.Lib

/-- The host lines after the region as ONE function of the region's output `z` and the arguments. -/
def tail (z : FVec Ideal S100000x1 .f32) (x1 : IVec S2x1600000 32) (b : FVec Ideal S1 .f32)
    (W2 : FVec Ideal S256x1 .f32) (b2 : FVec Ideal S1 .f32) : FVec Ideal S100000x1 .f32 :=
  addf
    (Host.scatterAdd (F := Ideal) scatter_S100000x1_S1700000x1_S1700000x1_1_0_0_1
      (broadcastInDim S100000x1 ![] bcast_S_S100000x1 (constant (F := Ideal) S_ .f32 0x00000000#32))
      (Cert.ReferenceIdeal.Read.val_main_v40 (F := Ideal) x1)
      (mulf
        (Host.gather gather_S100000x1_S1700000x1_S1700000x1_1_0_n_n_0_1_11 z
          (Cert.ReferenceIdeal.Read.val_main_v34 (F := Ideal) x1))
        (broadcastInDim S1700000x1 ![0] bcast_S1700000_S1700000x1_0
          (Cert.ReferenceIdeal.Read.val_main_v28 (F := Ideal) x1))))
    (broadcastInDim S100000x1 ![] bcast_S_S100000x1
      (addf
        (mulf (shapeCast S_ b shapeCasts_S1_S_)
          (Host.reduceAdd (F := Ideal) W2 (constant (F := Ideal) S_ .f32 0x00000000#32) reducesTo_S256x1_S_d0_1 h_S_))
        (shapeCast S_ b2 shapeCasts_S1_S_)))

/-- `tail` is a pointwise sum of two arrays (as functions; no index is applied). -/
theorem tail_eq_addf (z : FVec Ideal S100000x1 .f32) (x1 : IVec S2x1600000 32) (b : FVec Ideal S1 .f32)
    (W2 : FVec Ideal S256x1 .f32) (b2 : FVec Ideal S1 .f32) :
    tail z x1 b W2 b2
      = addf
          (Host.scatterAdd (F := Ideal) scatter_S100000x1_S1700000x1_S1700000x1_1_0_0_1
            (broadcastInDim S100000x1 ![] bcast_S_S100000x1 (constant (F := Ideal) S_ .f32 0x00000000#32))
            (Cert.ReferenceIdeal.Read.val_main_v40 (F := Ideal) x1)
            (mulf
              (Host.gather gather_S100000x1_S1700000x1_S1700000x1_1_0_n_n_0_1_11 z
                (Cert.ReferenceIdeal.Read.val_main_v34 (F := Ideal) x1))
              (broadcastInDim S1700000x1 ![0] bcast_S1700000_S1700000x1_0
                (Cert.ReferenceIdeal.Read.val_main_v28 (F := Ideal) x1))))
          (broadcastInDim S100000x1 ![] bcast_S_S100000x1
            (addf
              (mulf (shapeCast S_ b shapeCasts_S1_S_)
                (Host.reduceAdd (F := Ideal) W2 (constant (F := Ideal) S_ .f32 0x00000000#32) reducesTo_S256x1_S_d0_1 h_S_))
              (shapeCast S_ b2 shapeCasts_S1_S_))) := rfl

/-! ## The tail read at a node -/

theorem n_pos : 0 < 100000 := by norm_num

/-- A scalar constant zero spread over any shape is zero everywhere. -/
theorem zeros_apply {T : Shape} (h : S_.BroadcastsInDim T ![]) (i : T.Idx) :
    broadcastInDim T ![] h (constant (F := Ideal) S_ .f32 0x00000000#32) i = (0 : EReal) := by
  rw [broadcastInDim_scalar_apply, constant_apply]
  exact Ideal.ofBits_zero_f32

/-- A vector spread along a trailing unit axis, at `(e, 0)`, is the vector at `e`. -/
theorem column_apply (y : FVec Ideal S1700000 .f32) (e : Fin 1700000) :
    broadcastInDim S1700000x1 ![0] bcast_S1700000_S1700000x1_0 y (ix2 e (0 : Fin 1)) = y (ix1 e) :=
  broadcastInDim_apply _ bcast_S1700000_S1700000x1_0 y (ix2 e (0 : Fin 1)) (ix1 e) (fun a => match a with
    | ⟨0, _⟩ => by show e.val = if (1700000 : Nat) = 1 then 0 else e.val; rw [if_neg (by decide)])

/-- The weights spread along the trailing unit axis, at `(e, 0)`, are entry `e`'s weight. -/
theorem column_norm (x1 : IVec S2x1600000 32) (e : Fin 1700000) :
    broadcastInDim S1700000x1 ![0] bcast_S1700000_S1700000x1_0 (Cert.ReferenceIdeal.Read.val_main_v28 (F := Ideal) x1)
        (ix2 e (0 : Fin 1)) = Cert.RefAt.edgeNorm x1 e := by
  unfold Cert.RefAt.edgeNorm
  exact column_apply _ e

/-- Weighted scalars accumulated per destination, for any destination and source integers, any all-zero start `z0`,
    any array `z` to read and any array `wv` of weights. -/
theorem scat_gen (z0 : FVec Ideal S100000x1 .f32) (hz0 : ∀ i, z0 i = (0 : EReal)) (iD iS : IVec S1700000x1 32)
    (z : FVec Ideal S100000x1 .f32) (wv : FVec Ideal S1700000x1 .f32) (n : Fin 100000) :
    Host.scatterAdd (F := Ideal) scatter_S100000x1_S1700000x1_S1700000x1_1_0_0_1 z0 iD
        (mulf (Host.gather gather_S100000x1_S1700000x1_S1700000x1_1_0_n_n_0_1_11 z iS) wv) (ix2 n (0 : Fin 1))
      = (0 : EReal) + ∑ e ∈ Finset.univ.filter (fun e : Fin 1700000 => (iD (ix2 e (0 : Fin 1))).toInt = (n.val : Int)),
          z (ix2 (clampRow 100000 n_pos iS e) (0 : Fin 1)) * wv (ix2 e (0 : Fin 1)) := by
  refine (scatterAdd_rows_apply (N := 100000) (D := 1) (E := 1700000)
    scatter_S100000x1_S1700000x1_S1700000x1_1_0_0_1.wf iD z0
    (mulf (Host.gather gather_S100000x1_S1700000x1_S1700000x1_1_0_n_n_0_1_11 z iS) wv) n (0 : Fin 1)).trans ?_
  refine congrArg₂ (· + ·) (hz0 _) (Finset.sum_congr rfl fun e _ => ?_)
  refine congrArg₂ (· * ·) ?_ rfl
  exact gather_rows_apply (N := 100000) (D := 1) (E := 1700000) n_pos
    gather_S100000x1_S1700000x1_S1700000x1_1_0_n_n_0_1_11.wf z iS e (0 : Fin 1)

/-- A one-element vector reshaped to a scalar is its element. -/
theorem scalar_of_vec (v : FVec Ideal S1 .f32) : shapeCast S_ v shapeCasts_S1_S_ ix0 = v (ix1 (0 : Fin 1)) :=
  shapeCast_apply v shapeCasts_S1_S_ ix0 (ix1 (0 : Fin 1)) rfl

/-- The sum of every entry of W2, from zero. -/
theorem sumW2 (W2 : FVec Ideal S256x1 .f32) :
    Host.reduceAdd (F := Ideal) W2 (constant (F := Ideal) S_ .f32 0x00000000#32) reducesTo_S256x1_S_d0_1 h_S_ ix0
      = (0 : EReal) + ∑ j : Fin 256, W2 (ix2 j (0 : Fin 1)) := by
  rw [hostReduceAdd_apply, Ideal.hostReduceAdd_total _ (fun b => b.elim0)]
  rw [constant_apply, Ideal.ofBits_zero_f32]
  refine congrArg₂ (· + ·) rfl ?_
  rw [sum_idx2]
  refine Finset.sum_congr rfl fun j _ => ?_
  exact Fintype.sum_unique _

/-- THE TAIL AT NODE `n`. -/
theorem tail_apply (z : FVec Ideal S100000x1 .f32) (x1 : IVec S2x1600000 32) (b : FVec Ideal S1 .f32)
    (W2 : FVec Ideal S256x1 .f32) (b2 : FVec Ideal S1 .f32) (n : Fin 100000) :
    tail z x1 b W2 b2 (ix2 n (0 : Fin 1))
      = ((0 : EReal) + ∑ e ∈ Cert.RefAt.edgesAt x1 n, z (ix2 (Cert.RefAt.srcRow x1 e) (0 : Fin 1)) * Cert.RefAt.edgeNorm x1 e)
        + (b (ix1 (0 : Fin 1)) * ((0 : EReal) + ∑ j : Fin 256, W2 (ix2 j (0 : Fin 1))) + b2 (ix1 (0 : Fin 1))) := by
  have hA := scat_gen (broadcastInDim S100000x1 ![] bcast_S_S100000x1 (constant (F := Ideal) S_ .f32 0x00000000#32))
    (zeros_apply bcast_S_S100000x1) (Cert.ReferenceIdeal.Read.val_main_v40 (F := Ideal) x1)
    (Cert.ReferenceIdeal.Read.val_main_v34 (F := Ideal) x1) z
    (broadcastInDim S1700000x1 ![0] bcast_S1700000_S1700000x1_0 (Cert.ReferenceIdeal.Read.val_main_v28 (F := Ideal) x1))
    n
  have hA' : ((0 : EReal) + ∑ e ∈ Finset.univ.filter (fun e : Fin 1700000 =>
          (Cert.ReferenceIdeal.Read.val_main_v40 (F := Ideal) x1 (ix2 e (0 : Fin 1))).toInt = (n.val : Int)),
        z (ix2 (clampRow 100000 n_pos (Cert.ReferenceIdeal.Read.val_main_v34 (F := Ideal) x1) e) (0 : Fin 1))
          * broadcastInDim S1700000x1 ![0] bcast_S1700000_S1700000x1_0 (Cert.ReferenceIdeal.Read.val_main_v28 (F := Ideal) x1)
              (ix2 e (0 : Fin 1)))
      = (0 : EReal) + ∑ e ∈ Cert.RefAt.edgesAt x1 n, z (ix2 (Cert.RefAt.srcRow x1 e) (0 : Fin 1)) * Cert.RefAt.edgeNorm x1 e :=
    congrArg₂ (· + ·) rfl (Finset.sum_congr rfl fun e _ => congrArg₂ (· * ·) rfl (column_norm x1 e))
  have hB : broadcastInDim S100000x1 ![] bcast_S_S100000x1
        (addf (mulf (shapeCast S_ b shapeCasts_S1_S_)
          (Host.reduceAdd (F := Ideal) W2 (constant (F := Ideal) S_ .f32 0x00000000#32) reducesTo_S256x1_S_d0_1 h_S_))
          (shapeCast S_ b2 shapeCasts_S1_S_)) (ix2 n (0 : Fin 1))
      = b (ix1 (0 : Fin 1)) * ((0 : EReal) + ∑ j : Fin 256, W2 (ix2 j (0 : Fin 1))) + b2 (ix1 (0 : Fin 1)) := by
    rw [broadcastInDim_scalar_apply, addf_apply, mulf_apply, scalar_of_vec b, scalar_of_vec b2, sumW2 W2]
  rw [tail_eq_addf, addf_apply]
  exact congrArg₂ (· + ·) (hA.trans hA') hB

/-! ## The host lines produce the tail -/

set_option maxHeartbeats 4000000 in
/-- Over ANY contents `W` of the buffers when the host lines start, they leave `tail` of the region's output and the
    arguments, as `W` holds them, in the result buffer. -/
theorem after_tail (W : Valuation τ sig (Elt Ideal)) :
    StableHlo.after hostOps1 W (Proc.devRef .tc main_v49)
      = tail (W (Proc.devRef .tc main_v1)) (W (Proc.devRef .tc main_arg1)) (W (Proc.devRef .tc main_arg3))
          (W (Proc.devRef .tc main_arg4)) (W (Proc.devRef .tc main_arg5)) := by
  after_results_simp <;> rfl

end Cert.KernelIdeal.Tail

end
-- ==== Proof.Finite.lean ====
/-
  Every float input is an array of real numbers.

  The precondition is the conjunction, over the five float inputs, of "every entry's absolute value is below +∞".
  On the extended reals the absolute value of `x` is max x (−x), and +∞ is the top element; max x (−x) < ⊤ rules out
  both infinities, so `x` is the coercion of a real number.
-/
import proofs.«158524_j90443421319565_2_alg».proof.Pre_finite_inputs
import proofs.«158524_j90443421319565_2_alg».proof.Proof.Gen.Pre_finite_inputs
import Idealize.ShloMosaic.PureOps.Ideal.Laws
import Idealize.ShloMosaic.Lib.ReduceAll
import Idealize.ShloMosaic.Lib.IdealHost
import Idealize.ShloMosaic.Lib.Affine

noncomputable section

namespace Cert.Finite

open Cert.Pre_finite_inputs Idealize.ShloMosaic Idealize.ShloMosaic.ValueIdx

/-- An extended real whose absolute value compares below the +∞ pattern is a real number. -/
theorem real_of_abs_lt (x t : EReal) (ht : t = Ideal.ofBits .f32 0x7F800000#32)
    (h : Ideal.cmp .olt (max x (-x)) t = 1#1) : ∃ r : ℝ, x = (r : EReal) := by
  have htop : Ideal.ofBits .f32 0x7F800000#32 = ⊤ := by simp [Ideal.ofBits, Ideal.ieee]
  rw [ht, htop] at h
  have h' : max x (-x) < (⊤ : EReal) := by
    by_contra hn
    simp [Ideal.cmp, hn] at h
  induction x using EReal.rec with
  | bot => simp at h'
  | coe r => exact ⟨r, rfl⟩
  | top => simp at h'

instance : Subsingleton S_.Idx := ⟨fun a b => funext fun d => d.elim0⟩

/-- One `jnp.all(|a| < inf)` that holds makes every entry of `a` a real number; any shape. -/
theorem all_real {s : Shape} {axes : List (Fin s.rank)} (a : FVec Ideal s .f32) (hb : S_.BroadcastsInDim s ![])
    (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu ix0 = 1#1) (i : s.Idx) : ∃ r : ℝ, a i = (r : EReal) :=
  real_of_abs_lt (a i) _ (broadcastInDim_scalar_apply hb _ i)
    (Host.reduce_andi_all _ _ hr hu ix0 h i)

/-- THE PRECONDITION, DECODED: each of the five float inputs is an array of real numbers. -/
theorem of_pre (x : FVec Ideal S100000x48 .f32) (x1 : IVec S2x1600000 32) (W1 : FVec Ideal S48x256 .f32)
    (b : FVec Ideal S1 .f32) (W2 : FVec Ideal S256x1 .f32) (b2 : FVec Ideal S1 .f32)
    (h : fn (F := Ideal) x x1 W1 b W2 b2 = fun _ => 1#1) :
    (∀ i, ∃ r : ℝ, x i = (r : EReal)) ∧ (∀ i, ∃ r : ℝ, W1 i = (r : EReal)) ∧ (∀ i, ∃ r : ℝ, b i = (r : EReal))
      ∧ (∀ i, ∃ r : ℝ, W2 i = (r : EReal)) ∧ (∀ i, ∃ r : ℝ, b2 i = (r : EReal)) := by
  have h0 := congrFun h ix0
  dsimp only [fn, fn_part1] at h0
  have h0' : IntOp.andi (IntOp.andi (IntOp.andi (IntOp.andi
      (Host.reduce IntOp.andi (cmpf .olt (Host.absf x) (broadcastInDim S100000x48 ![] Facts.bcast_S_S100000x48
        (constant (F := Ideal) S_ .f32 0x7F800000#32))) (constantI S_ 1 1#1) Facts.reducesTo_S100000x48_S_d0_1 Facts.h_S_ ix0)
      (Host.reduce IntOp.andi (cmpf .olt (Host.absf W1) (broadcastInDim S48x256 ![] Facts.bcast_S_S48x256
        (constant (F := Ideal) S_ .f32 0x7F800000#32))) (constantI S_ 1 1#1) Facts.reducesTo_S48x256_S_d0_1 Facts.h_S_ ix0))
      (Host.reduce IntOp.andi (cmpf .olt (Host.absf b) (broadcastInDim S1 ![] Facts.bcast_S_S1
        (constant (F := Ideal) S_ .f32 0x7F800000#32))) (constantI S_ 1 1#1) Facts.reducesTo_S1_S_d0 Facts.h_S_ ix0))
      (Host.reduce IntOp.andi (cmpf .olt (Host.absf W2) (broadcastInDim S256x1 ![] Facts.bcast_S_S256x1
        (constant (F := Ideal) S_ .f32 0x7F800000#32))) (constantI S_ 1 1#1) Facts.reducesTo_S256x1_S_d0_1 Facts.h_S_ ix0))
      (Host.reduce IntOp.andi (cmpf .olt (Host.absf b2) (broadcastInDim S1 ![] Facts.bcast_S_S1
        (constant (F := Ideal) S_ .f32 0x7F800000#32))) (constantI S_ 1 1#1) Facts.reducesTo_S1_S_d0 Facts.h_S_ ix0)
      = 1#1 := h0
  rw [IntOp.andi_eq_one, IntOp.andi_eq_one, IntOp.andi_eq_one, IntOp.andi_eq_one] at h0'
  obtain ⟨⟨⟨⟨hx, hW1⟩, hb⟩, hW2⟩, hb2⟩ := h0'
  exact ⟨all_real x _ _ _ hx, all_real W1 _ _ _ hW1, all_real b _ _ _ hb, all_real W2 _ _ _ hW2,
    all_real b2 _ _ _ hb2⟩

end Cert.Finite

end
-- ==== Proof.LibEdgeGatherVec.lean ====
/-
  A gather of scalars from a vector, keyed by ONE integer per edge. Independent of any program.

  An edge list of length `E` carries, per edge `e`, one integer `idx[e, 0]` (the start indices have shape `[E, 1]`).
  Elements of a vector `x : [N]` taken at the edges' integers (`x[idx]`: no offset axis, collapsed axis 0, slices
  `[1]`) give `[E]`, whose element `e` is `x` at `clampRow idx e` — the integer read signed and clamped into
  `[0, N − 1]`, as the gather clamps every start index.  This is the matrix gather of rows with the column axis
  removed: the same place is read, and nothing is left of the slice but one element.
-/
import proofs.«158524_j90443421319565_2_alg».proof.Proof.LibEdgeGatherScatter

noncomputable section

namespace Cert.Lib

open Idealize.ShloMosaic Idealize.ShloMosaic.ValueIdx

/-- The dimension numbers of `x[idx]` for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ELEMENTS OF A VECTOR at `e`: the operand at `clampRow idx e`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
        + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Lib

end
-- ==== Proof.LibCountScatter.lean ====
/-
  Counting with an accumulating scatter. Independent of any program.

  A scatter visits the updates one by one in row-major order; update number `n` names a place of the operand (or no
  place, when it falls outside) that does not depend on what was written before.  So the element that ends at place
  `i` is the operand's element there with the body applied, in order, to exactly the updates that land at `i`.

  Take the operand all zeros and every update one.  With a 32-bit integer sum as body the element at `i` is the
  number `k` of updates landing at `i`, reduced modulo `2 ^ 32`; `k` is at most the number of updates, so when
  that is below `2 ^ 31` the signed reading of the element is `k` itself.  Over the extended reals the accumulating
  scatter leaves `0` plus a sum of `k` ones, which is `k` again.  Hence the integer count, converted, is the real count.
-/
import Idealize.ShloMosaic.Lib.ValueIdx
import Idealize.ShloMosaic.PureOps.Ideal

noncomputable section

namespace Cert.Lib

open Idealize.ShloMosaic Idealize.ShloMosaic.ValueIdx

/-- A scatter's fold over any list of update numbers, read at `i`: the fold of the body over those numbers of the
    list that land at `i`, started from the operand's element at `i`. -/
theorem scatter_foldl_apply {α : Type} {s si u : Shape} {w : Nat} (d : ScatterDims s si u) (f : α → α → α)
    (idx : IVec si w) (upd : u.Idx → α) (i : s.Idx) (l : List (Fin u.numel)) (x : s.Idx → α) :
    l.foldl (fun r n =>
        match d.resultIdx? (u.rowMajor.symm n) idx with
        | some i₀ => fun i' => if i' = i₀ then f (r i₀) (upd (u.rowMajor.symm n)) else r i'
        | none => r) x i
      = (l.filter (fun n => decide (d.resultIdx? (u.rowMajor.symm n) idx = some i))).foldl
          (fun a n => f a (upd (u.rowMajor.symm n))) (x i) := by
  induction l generalizing x with
  | nil => rfl
  | cons n l ih =>
    rw [List.foldl_cons, ih, List.filter_cons]
    cases h : d.resultIdx? (u.rowMajor.symm n) idx with
    | none => simp
    | some i₀ =>
      by_cases hi : i = i₀
      · subst hi; simp
      · have hne : ¬ (some i₀ = some i) := fun hs => hi (Option.some.inj hs).symm
        simp [hi, hne]

/-- THE ELEMENT A SCATTER LEAVES AT `i`: the body folded, in row-major order, over the updates that land at `i`,
    started from the operand's element. -/
theorem scatter_apply_foldl {α : Type} {s si u : Shape} {w : Nat} (d : ScatterDims s si u) (f : α → α → α)
    (x : s.Idx → α) (idx : IVec si w) (upd : u.Idx → α) (i : s.Idx) :
    Host.scatter d f x idx upd i
      = ((List.finRange u.numel).filter (fun n => decide (d.resultIdx? (u.rowMajor.symm n) idx = some i))).foldl
          (fun a n => f a (upd (u.rowMajor.symm n))) (x i) :=
  scatter_foldl_apply d f idx upd i (List.finRange u.numel) x

/-! ## Counting -/

/-- Adding the 32-bit integer one once for every member of a list adds the list's length, modulo `2 ^ 32`. -/
theorem foldl_addi_one {β : Type} (l : List β) (a : BitVec 32) :
    l.foldl (fun a _ => IntOp.addi a (1#32 : BitVec 32)) a = a + BitVec.ofNat 32 l.length := by
  induction l generalizing a with
  | nil => simp
  | cons n l ih =>
    rw [List.foldl_cons, ih, List.length_cons]
    unfold IntOp.addi
    rw [BitVec.add_assoc, Nat.add_comm l.length 1, BitVec.ofNat_add]

/-- A natural number below `2 ^ 31`, written as a 32-bit integer and read signed, is itself. -/
theorem toInt_ofNat_of_lt {k : ℕ} (hk : k < 2 ^ 31) : (BitVec.ofNat 32 k).toInt = (k : ℤ) := by
  rw [BitVec.toInt_eq_toNat_cond, BitVec.toNat_ofNat]
  have hmod : k % 2 ^ 32 = k := Nat.mod_eq_of_lt (by omega)
  rw [hmod]
  split <;> omega

/-- The number of updates landing at `i`: how many of the update numbers, in row-major order, name `i`. -/
def landCount {s si u : Shape} {w : Nat} (d : ScatterDims s si u) (idx : IVec si w) (i : s.Idx) : ℕ :=
  ((List.finRange u.numel).filter (fun n => decide (d.resultIdx? (u.rowMajor.symm n) idx = some i))).length

/-- No more updates land at `i` than there are updates. -/
theorem landCount_le {s si u : Shape} {w : Nat} (d : ScatterDims s si u) (idx : IVec si w) (i : s.Idx) :
    landCount d idx i ≤ u.numel := by
  unfold landCount
  exact (List.length_filter_le _ _).trans (List.length_finRange).le

/-- ONES ACCUMULATED OVER THE EXTENDED REALS INTO ZEROS leave at `i` the number of updates landing at `i`. -/
theorem hostScatterAdd_ones {s si u : Shape} {w : Nat} (d : ScatterDims s si u) (idx : IVec si w) (i : s.Idx) :
    Ideal.hostScatterAdd d (fun _ => (0 : EReal)) idx (fun _ => (1 : EReal)) i = (((landCount d idx i : ℕ) : ℝ) : EReal) := by
  unfold Ideal.hostScatterAdd landCount
  rw [Finset.sum_const, zero_add, nsmul_one, EReal.coe_natCast]
  congr 1
  rw [← List.toFinset_card_of_nodup ((List.nodup_finRange _).filter _), List.toFinset_filter, List.toFinset_finRange]
  symm
  refine Finset.card_bij (fun n _ => u.rowMajor.symm n) ?_ ?_ ?_
  · intro n hn
    simpa using hn
  · intro a _ b _ h
    exact u.rowMajor.symm.injective h
  · intro j hj
    exact ⟨u.rowMajor j, by simpa using hj, by simp⟩

/-- ONES ACCUMULATED AS 32-BIT INTEGERS INTO ZEROS leave at `i` the number of updates landing at `i`, modulo
    `2 ^ 32`. -/
theorem scatter_addi_ones {s si u : Shape} {w : Nat} (d : ScatterDims s si u) (idx : IVec si w) (i : s.Idx) :
    Host.scatter d IntOp.addi (fun _ => (0#32 : BitVec 32)) idx (fun _ => (1#32 : BitVec 32)) i
      = BitVec.ofNat 32 (landCount d idx i) := by
  rw [scatter_apply_foldl, foldl_addi_one, BitVec.zero_add]
  rfl

/-- THE INTEGER COUNT, CONVERTED, IS THE REAL COUNT: with fewer than `2 ^ 31` updates, the signed reading of the
    integer scatter of ones into zeros is the extended-real scatter of ones into zeros. -/
theorem count_scatter_eq {s si u : Shape} {w : Nat} (d : ScatterDims s si u) (idx : IVec si w) (hu : u.numel < 2 ^ 31)
    (i : s.Idx) :
    (((Host.scatter d IntOp.addi (fun _ => (0#32 : BitVec 32)) idx (fun _ => (1#32 : BitVec 32)) i).toInt : ℝ) : EReal)
      = Ideal.hostScatterAdd d (fun _ => (0 : EReal)) idx (fun _ => (1 : EReal)) i := by
  rw [scatter_addi_ones, toInt_ofNat_of_lt (lt_of_le_of_lt (landCount_le d idx i) hu), hostScatterAdd_ones,
    Int.cast_natCast]

/-- The extended-real scatter of ones into zeros is a natural number at every place. -/
theorem count_scatter_nat {s si u : Shape} {w : Nat} (d : ScatterDims s si u) (idx : IVec si w) (i : s.Idx) :
    ∃ k : ℕ, Ideal.hostScatterAdd d (fun _ => (0 : EReal)) idx (fun _ => (1 : EReal)) i = (((k : ℕ) : ℝ) : EReal) :=
  ⟨landCount d idx i, hostScatterAdd_ones d idx i⟩

end Cert.Lib

end
-- ==== Proof.LibHostScatterExact.lean ====
/-
  The host's accumulating scatter on the extended reals. Independent of any program.

  A `stablehlo.scatter` whose body adds (jax's `.at[idx].add(v)`, `segment_sum`) leaves at each place of the operand
  the operand's element plus the sum of the updates that land there. On the extended reals no order of addition and
  no rounding is left in it, so as a FUNCTION of its operand, its indices and its updates it is that exact accumulation
  — for any shapes, any dimension numbers, any operand and any updates.
-/
import Idealize.ShloMosaic.PureOps.Ideal

noncomputable section

namespace Cert.Lib

open Idealize.ShloMosaic

/-- THE HOST'S ACCUMULATING SCATTER IS THE EXACT ACCUMULATION, as arrays: any shapes, dimension numbers, operand, indices
    and updates. -/
theorem host_scatter_eq {s si u : Shape} {w : Nat} (d : ScatterDims s si u) (x : FVec Ideal s .f32) (idx : IVec si w)
    (upd : FVec Ideal u .f32) : Host.scatterAdd (F := Ideal) d x idx upd = Ideal.hostScatterAdd d x idx upd :=
  Ideal.hostScatterAdd_def d .single x idx upd

end Cert.Lib

end
-- ==== Proof.NormReal.lean ====
/-
  Every edge weight is a real number.

  A node's degree is a sum of ones, one for each entry of the extended edge list that arrives at it: a natural number.
  Its maximum with 1 is a real number at least 1, whose inverse square root is a positive real. An entry's weight is the
  product of two such inverse square roots, one read at its (wrapped, clamped) source and one at its destination, so
  it is a real number too — whatever integers the edge list holds.
-/
import proofs.«158524_j90443421319565_2_alg».proof.Proof.RefAt
import proofs.«158524_j90443421319565_2_alg».proof.Proof.LibEdgeGatherVec
import proofs.«158524_j90443421319565_2_alg».proof.Proof.LibCountScatter
import proofs.«158524_j90443421319565_2_alg».proof.Proof.LibHostScatterExact
import Idealize.ShloMosaic.Lib.IdealHost

noncomputable section

namespace Cert.RefAt

open Cert.ReferenceIdeal Cert.ReferenceIdeal.Read Idealize.ShloMosaic Idealize.ShloMosaic.ValueIdx Cert.Lib

theorem n_pos : 0 < 100000 := by norm_num

/-- The inverse square root of the larger of a natural number and one is a real number. -/
theorem rsqrt_max_nat (k : ℕ) : ∃ r : ℝ, Ideal.rsqrt (max (((k : ℕ) : ℝ) : EReal) (1 : EReal)) = (r : EReal) := by
  have hmax : max (((k : ℕ) : ℝ) : EReal) (1 : EReal) = ((max ((k : ℕ) : ℝ) 1 : ℝ) : EReal) := by
    rw [← EReal.coe_one]
    exact (EReal.coe_strictMono.monotone.map_max).symm
  have hr : (1 : ℝ) ≤ max ((k : ℕ) : ℝ) 1 := le_max_right _ _
  rw [hmax, Ideal.rsqrt_coe, if_neg (by linarith), if_neg (by linarith)]
  exact ⟨_, rfl⟩

theorem v8_zero : val_main_v8 (F := Ideal) = fun _ => (0 : EReal) := by
  funext i
  rw [val_main_v8_apply, val_main_cst_0_apply]
  exact Ideal.ofBits_zero_f32

theorem v7_one : val_main_v7 (F := Ideal) = fun _ => (1 : EReal) := by
  funext i
  rw [val_main_v7_apply, val_main_cst_apply]
  exact Ideal.ofBits_one_f32

theorem v11_one (i : S100000.Idx) : val_main_v11 (F := Ideal) i = (1 : EReal) := by
  rw [val_main_v11_apply, val_main_cst_1_apply]
  exact Ideal.ofBits_one_f32

/-- A node's degree is a natural number: ones accumulated into zeros count the entries arriving at the node. -/
theorem deg_nat (x1 : IVec S2x1600000 32) (i : S100000.Idx) :
    ∃ k : ℕ, val_main_v10 (F := Ideal) x1 i = (((k : ℕ) : ℝ) : EReal) := by
  show ∃ k : ℕ, Host.scatterAdd (F := Ideal) scatter_S100000_S1700000x1_S1700000_n_0_0_1 (val_main_v8 (F := Ideal))
    (val_main_v9 (F := Ideal) x1) (val_main_v7 (F := Ideal)) i = (((k : ℕ) : ℝ) : EReal)
  rw [host_scatter_eq, v8_zero, v7_one]
  exact count_scatter_nat scatter_S100000_S1700000x1_S1700000_n_0_0_1 (val_main_v9 (F := Ideal) x1) i

/-- A node's inverse square root degree is a real number. -/
theorem dinv_real (x1 : IVec S2x1600000 32) (i : S100000.Idx) : ∃ r : ℝ, val_main_v13 (F := Ideal) x1 i = (r : EReal) := by
  obtain ⟨k, hk⟩ := deg_nat x1 i
  obtain ⟨r, hr⟩ := rsqrt_max_nat k
  refine ⟨r, ?_⟩
  rw [val_main_v13_apply, val_main_v12_apply, hk, v11_one, Ideal.hostUnary_rsqrt_def, Ideal.maximumf_def]
  exact hr

/-- A vector of node values read at the entries' integers: entry `e` reads the node its integer names, clamped. -/
theorem gather_gen (y : FVec Ideal S100000 .f32) (idx : IVec S1700000x1 32) (e : Fin 1700000) :
    Host.gather gather_S100000_S1700000x1_S1700000_n_0_n_n_0_1_1 y idx (ix1 e)
      = y (ix1 (clampRow 100000 n_pos idx e)) :=
  gather_vec_apply (N := 100000) (E := 1700000) n_pos gather_S100000_S1700000x1_S1700000_n_0_n_n_0_1_1.wf y idx e

/-- EVERY EDGE WEIGHT IS A REAL NUMBER. -/
theorem edgeNorm_real (x1 : IVec S2x1600000 32) (e : Fin 1700000) : ∃ r : ℝ, edgeNorm x1 e = (r : EReal) := by
  obtain ⟨r1, h1⟩ := dinv_real x1 (ix1 (clampRow 100000 n_pos (val_main_v19 (F := Ideal) x1) e))
  obtain ⟨r2, h2⟩ := dinv_real x1 (ix1 (clampRow 100000 n_pos (val_main_v26 (F := Ideal) x1) e))
  refine ⟨r1 * r2, ?_⟩
  have e1 : val_main_v20 (F := Ideal) x1 (ix1 e) = (r1 : EReal) :=
    (gather_gen (val_main_v13 (F := Ideal) x1) (val_main_v19 (F := Ideal) x1) e).trans h1
  have e2 : val_main_v27 (F := Ideal) x1 (ix1 e) = (r2 : EReal) :=
    (gather_gen (val_main_v13 (F := Ideal) x1) (val_main_v26 (F := Ideal) x1) e).trans h2
  unfold edgeNorm
  rw [val_main_v28_apply, e1, e2, EReal.coe_mul]
  rfl

end Cert.RefAt

end
-- ==== Proof.LibLinearCollapse.lean ====
/-
  The law that lets a linear map be applied before or after a weighted aggregation over edges. Independent of any program.

  Fix a finite set `S` of edges. Edge `e` carries a feature row `xr e : Fin Fd → ℝ` and a weight `ν e`. A first
  dense layer `W1 : [Fd, Hd]` with a scalar bias `b`, then a second dense layer `W2 : [Hd]` with a scalar bias `b2`,
  applied to the aggregated row  ∑ e, xr e · ν e , give

      ∑ j, ((∑ f, (∑ e, xr e f · ν e) · W1 f j) + b) · W2 j + b2 .

  Both layers being linear, the same number is obtained by first projecting each edge's row onto the single vector
  w f = ∑ j, W1 f j · W2 j , aggregating the projected scalars, and adding the constant b · ∑ j, W2 j + b2 :

      (∑ e, (∑ f, xr e f · w f) · ν e) + (b · ∑ j, W2 j + b2) .

  Over the reals this is distributivity and the exchange of finite sums. Over the extended reals the same identity
  holds when every entry is (the coercion of) a real number, since sums and products of such entries are again such.
-/
import Idealize.ShloMosaic.PureOps.Ideal

noncomputable section

namespace Cert.Collapse

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- THE LAW OVER THE REALS. -/
theorem collapse_real {ι : Type} (S : Finset ι) {Fd Hd : ℕ}
    (xr : ι → Fin Fd → ℝ) (ν : ι → ℝ) (W1 : Fin Fd → Fin Hd → ℝ) (W2 : Fin Hd → ℝ) (b b2 : ℝ) :
    (∑ j : Fin Hd, ((∑ f : Fin Fd, (∑ e ∈ S, xr e f * ν e) * W1 f j) + b) * W2 j) + b2
      = (∑ e ∈ S, (∑ f : Fin Fd, xr e f * (∑ j : Fin Hd, W1 f j * W2 j)) * ν e) + (b * (∑ j : Fin Hd, W2 j) + b2) := by
  have h1 : (∑ j : Fin Hd, ((∑ f : Fin Fd, (∑ e ∈ S, xr e f * ν e) * W1 f j) + b) * W2 j)
      = (∑ j : Fin Hd, (∑ f : Fin Fd, (∑ e ∈ S, xr e f * ν e) * W1 f j) * W2 j) + b * ∑ j : Fin Hd, W2 j := by
    simp only [add_mul, Finset.sum_add_distrib, Finset.mul_sum]
  have h2 : (∑ j : Fin Hd, (∑ f : Fin Fd, (∑ e ∈ S, xr e f * ν e) * W1 f j) * W2 j)
      = ∑ e ∈ S, (∑ f : Fin Fd, xr e f * (∑ j : Fin Hd, W1 f j * W2 j)) * ν e := by
    calc (∑ j : Fin Hd, (∑ f : Fin Fd, (∑ e ∈ S, xr e f * ν e) * W1 f j) * W2 j)
        = ∑ j : Fin Hd, ∑ f : Fin Fd, ∑ e ∈ S, xr e f * ν e * W1 f j * W2 j := by
          simp only [Finset.sum_mul]
      _ = ∑ j : Fin Hd, ∑ e ∈ S, ∑ f : Fin Fd, xr e f * ν e * W1 f j * W2 j :=
          Finset.sum_congr rfl fun j _ => Finset.sum_comm
      _ = ∑ e ∈ S, ∑ j : Fin Hd, ∑ f : Fin Fd, xr e f * ν e * W1 f j * W2 j := Finset.sum_comm
      _ = ∑ e ∈ S, ∑ f : Fin Fd, ∑ j : Fin Hd, xr e f * ν e * W1 f j * W2 j :=
          Finset.sum_congr rfl fun e _ => Finset.sum_comm
      _ = ∑ e ∈ S, ∑ f : Fin Fd, ∑ j : Fin Hd, xr e f * (W1 f j * W2 j) * ν e :=
          Finset.sum_congr rfl fun e _ => Finset.sum_congr rfl fun f _ => Finset.sum_congr rfl fun j _ => by ring
      _ = ∑ e ∈ S, (∑ f : Fin Fd, xr e f * (∑ j : Fin Hd, W1 f j * W2 j)) * ν e := by
          simp only [Finset.sum_mul, Finset.mul_sum]
  rw [h1, h2]
  ring

/-- THE LAW OVER THE EXTENDED REALS, every entry a real number; the sums start from the zero the accumulating
    operations start from. -/
theorem collapse {ι : Type} (S : Finset ι) {Fd Hd : ℕ}
    (xr : ι → Fin Fd → ℝ) (ν : ι → ℝ) (W1 : Fin Fd → Fin Hd → ℝ) (W2 : Fin Hd → ℝ) (b b2 : ℝ) :
    (∑ j : Fin Hd, ((∑ f : Fin Fd, ((0 : EReal) + ∑ e ∈ S, (xr e f : EReal) * (ν e : EReal)) * (W1 f j : EReal))
          + (b : EReal)) * (W2 j : EReal)) + (b2 : EReal)
      = ((0 : EReal) + ∑ e ∈ S, (∑ f : Fin Fd, (xr e f : EReal) * (∑ j : Fin Hd, (W1 f j : EReal) * (W2 j : EReal)))
            * (ν e : EReal))
          + ((b : EReal) * ((0 : EReal) + ∑ j : Fin Hd, (W2 j : EReal)) + (b2 : EReal)) := by
  simp only [zero_add, ← EReal.coe_mul, ← coe_sum, ← EReal.coe_add]
  exact congrArg _ (collapse_real S xr ν W1 W2 b b2)

/-- THE LAW for extended-real entries each of which is a real number: what the two programs' results are compared by. -/
theorem collapse_of_real {ι : Type} (S : Finset ι) {Fd Hd : ℕ}
    (X : ι → Fin Fd → EReal) (N : ι → EReal) (A : Fin Fd → Fin Hd → EReal) (B : Fin Hd → EReal) (c c2 : EReal)
    (hX : ∀ e f, ∃ r : ℝ, X e f = (r : EReal)) (hN : ∀ e, ∃ r : ℝ, N e = (r : EReal))
    (hA : ∀ f j, ∃ r : ℝ, A f j = (r : EReal)) (hB : ∀ j, ∃ r : ℝ, B j = (r : EReal))
    (hc : ∃ r : ℝ, c = (r : EReal)) (hc2 : ∃ r : ℝ, c2 = (r : EReal)) :
    (∑ j : Fin Hd, ((∑ f : Fin Fd, ((0 : EReal) + ∑ e ∈ S, X e f * N e) * A f j) + c) * B j) + c2
      = ((0 : EReal) + ∑ e ∈ S, (∑ f : Fin Fd, X e f * (∑ j : Fin Hd, A f j * B j)) * N e)
          + (c * ((0 : EReal) + ∑ j : Fin Hd, B j) + c2) := by
  choose xr hxr using hX
  choose ν hν using hN
  choose w1 hw1 using hA
  choose w2 hw2 using hB
  obtain ⟨b, rfl⟩ := hc
  obtain ⟨b2, rfl⟩ := hc2
  obtain rfl : X = fun e f => (xr e f : EReal) := funext fun e => funext fun f => hxr e f
  obtain rfl : N = fun e => (ν e : EReal) := funext hν
  obtain rfl : A = fun f j => (w1 f j : EReal) := funext fun f => funext fun j => hw1 f j
  obtain rfl : B = fun j => (w2 j : EReal) := funext hw2
  exact collapse S xr ν w1 w2 b b2

end Cert.Collapse

end
-- ==== Proof.Bridge.lean ====
/-
  The two programs compute one function.

  At node `n` the reference's result is the two dense layers applied to the aggregated rows of `x`; the kernel
  program's is the aggregation of the rows of `x` projected onto W1 · W2, plus the constant bias 0 · (sum of W2) + b2 0.
  Both read the same set of entries arriving at `n`, the same source rows and the same weights. When every entry of the
  five float inputs is a real number — and every weight is one, whatever the edge list — the two are equal by the
  linearity law: distributivity and the exchange of finite sums.
-/
import proofs.«158524_j90443421319565_2_alg».proof.Proof.RefAt
import proofs.«158524_j90443421319565_2_alg».proof.Proof.NormReal
import proofs.«158524_j90443421319565_2_alg».proof.Proof.KernelRegion
import proofs.«158524_j90443421319565_2_alg».proof.Proof.KernelTail
import proofs.«158524_j90443421319565_2_alg».proof.Proof.LibLinearCollapse

noncomputable section

namespace Cert.Bridge

open Cert.KernelIdeal Idealize.ShloMosaic Idealize.ShloMosaic.ValueIdx
open Cert.KernelIdeal.Region Cert.KernelIdeal.Tail Cert.RefAt

/-- THE KERNEL PROGRAM AT NODE `n`: the tail of the projection, with the projection and W1 · W2 spelt out. -/
theorem kernel_apply (x : FVec Ideal S100000x48 .f32) (x1 : IVec S2x1600000 32) (W1 : FVec Ideal S48x256 .f32)
    (b : FVec Ideal S1 .f32) (W2 : FVec Ideal S256x1 .f32) (b2 : FVec Ideal S1 .f32) (n : Fin 100000) :
    tail (proj x (Host.dotGeneral (F := Ideal) dot_S48x256_S256x1_S48x1_1_0_0_1_n_n none W1 W2)) x1 b W2 b2
        (ix2 n (0 : Fin 1))
      = ((0 : EReal) + ∑ e ∈ edgesAt x1 n,
            (∑ f : Fin 48, x (ix2 (srcRow x1 e) f) * (∑ j : Fin 256, W1 (ix2 f j) * W2 (ix2 j (0 : Fin 1))))
              * edgeNorm x1 e)
        + (b (ix1 (0 : Fin 1)) * ((0 : EReal) + ∑ j : Fin 256, W2 (ix2 j (0 : Fin 1))) + b2 (ix1 (0 : Fin 1))) := by
  rw [tail_apply]
  refine congrArg₂ (· + ·) (congrArg₂ (· + ·) rfl (Finset.sum_congr rfl fun e _ => congrArg₂ (· * ·) ?_ rfl)) rfl
  rw [proj_apply]
  exact Finset.sum_congr rfl fun f _ => congrArg₂ (· * ·) rfl (w_apply W1 W2 f)

/-- ONE FUNCTION: for real-valued float inputs the reference's last stage is the kernel program's tail of the
    projection, at every node. -/
theorem result_eq (x : FVec Ideal S100000x48 .f32) (x1 : IVec S2x1600000 32) (W1 : FVec Ideal S48x256 .f32)
    (b : FVec Ideal S1 .f32) (W2 : FVec Ideal S256x1 .f32) (b2 : FVec Ideal S1 .f32)
    (hx : ∀ i, ∃ r : ℝ, x i = (r : EReal)) (hW1 : ∀ i, ∃ r : ℝ, W1 i = (r : EReal))
    (hb : ∀ i, ∃ r : ℝ, b i = (r : EReal)) (hW2 : ∀ i, ∃ r : ℝ, W2 i = (r : EReal))
    (hb2 : ∀ i, ∃ r : ℝ, b2 i = (r : EReal)) :
    Cert.ReferenceIdeal.Read.val_main_v49 (F := Ideal) x x1 W1 b W2 b2
      = tail (proj x (Host.dotGeneral (F := Ideal) dot_S48x256_S256x1_S48x1_1_0_0_1_n_n none W1 W2)) x1 b W2 b2 := by
  funext i
  obtain ⟨n, q, rfl⟩ : ∃ (n : Fin 100000) (q : Fin 1), i = ix2 n q := ⟨i 0, i 1, eq_ix2 i⟩
  obtain rfl : q = 0 := Subsingleton.elim _ _
  rw [ref_apply, kernel_apply]
  exact Cert.Collapse.collapse_of_real (edgesAt x1 n) (fun e f => x (ix2 (srcRow x1 e) f)) (edgeNorm x1)
    (fun f j => W1 (ix2 f j)) (fun j => W2 (ix2 j (0 : Fin 1))) (b (ix1 (0 : Fin 1))) (b2 (ix1 (0 : Fin 1)))
    (fun e f => hx _) (edgeNorm_real x1) (fun f j => hW1 _) (fun j => hW2 _) (hb _) (hb2 _)

end Cert.Bridge

end
-- ==== Proof.lean ====
/-
  The certificate of a graph-convolution layer followed by two dense layers, computed two ways.

  The reference aggregates, per destination node, the rows of `x` over the edge list (self-loops appended, each entry
  weighted by the inverse square roots of its endpoints' degrees), then applies x ↦ x · W1 + bias and h ↦ h · W2 + b2.
  The kernel program uses that all of this is linear in `x`: it first forms the single vector w = W1 · W2, projects every
  row of `x` onto it in one tiled region (20 blocks of 5000 rows), runs the same weighted aggregation on the projected
  scalars, and adds the constant bias 0 · (sum of W2) + b2 0. Over the extended reals the two agree whenever the float
  inputs are finite: every entry is then a real number, every weight is a real number for any edge list (a degree is a
  count), and the results are equal by distributivity and the exchange of finite sums.

  The three frames are the generated ones (the reference's is its generated run with the result dropped). The idealized
  kernel is the printed kernel's own text read on the extended reals, so nothing is owed for it. The equivalence reads
  the kernel's result off its frame run — the region's output array, then the host lines after it — and the reference's
  off its generated run, and joins them by the law above.
-/
import proofs.«158524_j90443421319565_2_alg».proof.Defs
import proofs.«158524_j90443421319565_2_alg».proof.Proof.Gen.Kernel
import proofs.«158524_j90443421319565_2_alg».proof.Proof.Gen.Kernel.Skeleton
import proofs.«158524_j90443421319565_2_alg».proof.Proof.Gen.Kernel.Launch
import proofs.«158524_j90443421319565_2_alg».proof.Proof.Gen.Kernel.Points
import proofs.«158524_j90443421319565_2_alg».proof.Proof.Gen.Kernel.Frame
import proofs.«158524_j90443421319565_2_alg».proof.Proof.Gen.KernelIdeal
import proofs.«158524_j90443421319565_2_alg».proof.Proof.Gen.KernelIdeal.Skeleton
import proofs.«158524_j90443421319565_2_alg».proof.Proof.Gen.KernelIdeal.Launch
import proofs.«158524_j90443421319565_2_alg».proof.Proof.Gen.KernelIdeal.Points
import proofs.«158524_j90443421319565_2_alg».proof.Proof.Gen.KernelIdeal.Frame
import proofs.«158524_j90443421319565_2_alg».proof.Proof.Gen.ReferenceIdeal
import proofs.«158524_j90443421319565_2_alg».proof.Proof.Gen.Pre_finite_inputs
import proofs.«158524_j90443421319565_2_alg».proof.Proof.Gen.ReferenceIdeal.Run
import proofs.«158524_j90443421319565_2_alg».proof.Proof.Gen.ReferenceIdeal.Read
import proofs.«158524_j90443421319565_2_alg».proof.Proof.KernelRegion
import proofs.«158524_j90443421319565_2_alg».proof.Proof.KernelTail
import proofs.«158524_j90443421319565_2_alg».proof.Proof.Finite
import proofs.«158524_j90443421319565_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

section KernelSide

open Cert.KernelIdeal Cert.KernelIdeal.Gen Cert.KernelIdeal.Region Cert.KernelIdeal.Tail

variable (m : (ℓ : Loc nD τ sig) → Buf (Elt Ideal) ℓ)

/-- What the kernel program's result buffer holds at the end, as a function of the arguments as launched. -/
def kernelResult (c : Dev nD) : Buf (Elt Ideal) ((c.tc : Thread nD τ).loc main_v49) :=
  tail (proj (argX m c) (Host.dotGeneral (F := Ideal) dot_S48x256_S256x1_S48x1_1_0_0_1_n_n none (argW1 m c) (argW2 m c)))
    (m ((c.tc : Thread nD τ).loc main_arg1)) (m ((c.tc : Thread nD τ).loc main_arg3))
    (m ((c.tc : Thread nD τ).loc main_arg4)) (m ((c.tc : Thread nD τ).loc main_arg5))

/-- The host lines after the region, started from the region's final arrays, leave that function in the result buffer:
    the region's output array is the projection, and no array of the region is an argument the lines read. -/
theorem tail_eq (c : Dev nD) :
    Pipeline.afterTail₀ cfgs (dats m) 0 (V0 m) [hostOps1] c main_v49 = kernelResult m c := by
  unfold Pipeline.afterTail₀
  show StableHlo.after hostOps1 _ (Proc.devRef .tc main_v49) = _
  rw [after_tail]
  have hz := (Pipeline.withArrays_arr spec0 launch0.win.arr_inj c (V0 m c)
    (fun w => (dats m 0 c).arrAt w cfg0.N) 2).trans (final m c)
  have h1 := (Pipeline.withArrays_of_ne spec0 c (V0 m c) (fun w => (dats m 0 c).arrAt w cfg0.N) main_arg1
    (by exact (by decide : ∀ w, Pipeline.arrRef spec0 w ≠ main_arg1))).trans (V_main_arg1 m c)
  have h3 := (Pipeline.withArrays_of_ne spec0 c (V0 m c) (fun w => (dats m 0 c).arrAt w cfg0.N) main_arg3
    (by exact (by decide : ∀ w, Pipeline.arrRef spec0 w ≠ main_arg3))).trans (V_main_arg3 m c)
  have h4 := (Pipeline.withArrays_of_ne spec0 c (V0 m c) (fun w => (dats m 0 c).arrAt w cfg0.N) main_arg4
    (by exact (by decide : ∀ w, Pipeline.arrRef spec0 w ≠ main_arg4))).trans (V_main_arg4 m c)
  have h5 := (Pipeline.withArrays_of_ne spec0 c (V0 m c) (fun w => (dats m 0 c).arrAt w cfg0.N) main_arg5
    (by exact (by decide : ∀ w, Pipeline.arrRef spec0 w ≠ main_arg5))).trans (V_main_arg5 m c)
  unfold kernelResult
  exact congr (congr (congr (congr (congrArg tail hz) h1) h3) h4) h5

/-- THE KERNEL PROGRAM'S RUN: every weakly fair execution terminates with the result buffer at `kernelResult` and the
    arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v49) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v49 (Pipeline.mem_restRefs_of main_v49 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end KernelSide

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, of which the precondition holds, both programs end with the kernel
    program's function of the arguments in their result buffers: the reference's last stage is that function. -/
theorem algebraic : Cert.algebraic_KernelIdeal_ReferenceIdeal := by
  intro m ρ m' ρ' hpre hagree
  refine ⟨fun c => kernelResult m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1,
    (hagree c).2.2.2.2.1, (hagree c).2.2.2.2.2]
  obtain ⟨hx, hW1, hb, hW2, hb2⟩ := Cert.Finite.of_pre _ _ _ _ _ _ (hpre c)
  exact Cert.Bridge.result_eq _ _ _ _ _ _ hx hW1 hb hW2 hb2

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
